-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x64 : Shape := ⟨3, ![128, 4096, 64]⟩
abbrev S128x64x256 : Shape := ⟨3, ![128, 64, 256]⟩
abbrev S128x256x64 : Shape := ⟨3, ![128, 256, 64]⟩
abbrev S_ : Shape := ⟨0, ![]⟩

class Facts : Prop where
  bcast_S_S128x4096x64 : S_.BroadcastsInDim S128x4096x64 (![] : Fin 0 → Fin S128x4096x64.rank)
  reducesTo_S128x4096x64_S_d0_1_2 : S128x4096x64.ReducesTo [0, 1, 2] S_
  h_S_ : 0 < S_.numel
  bcast_S_S128x64x256 : S_.BroadcastsInDim S128x64x256 (![] : Fin 0 → Fin S128x64x256.rank)
  reducesTo_S128x64x256_S_d0_1_2 : S128x64x256.ReducesTo [0, 1, 2] S_
  bcast_S_S128x256x64 : S_.BroadcastsInDim S128x256x64 (![] : Fin 0 → Fin S128x256x64.rank)
  reducesTo_S128x256x64_S_d0_1_2 : S128x256x64.ReducesTo [0, 1, 2] S_

variable [Facts]

def fn {F : FTy → Type} [FloatOps F] (main_arg0 : FVec F S128x4096x64 .f32) (main_arg1 : FVec F S128x64x256 .f32) (main_arg2 : FVec F S128x256x64 .f32) : IVec S_ 1 :=
  let main_v0 : FVec F S128x4096x64 .f32 := Host.absf main_arg0
  let main_cst : FVec F S_ .f32 := constant S_ .f32 0x7F800000#32
  let main_v1 : FVec F S128x4096x64 .f32 := broadcastInDim S128x4096x64 ![] bcast_S_S128x4096x64 main_cst
  let main_v2 : IVec S128x4096x64 1 := cmpf .olt main_v0 main_v1
  let main_c : IVec S_ 1 := constantI S_ 1 1#1
  let main_v3 : IVec S_ 1 := (fun x v => Host.reduce IntOp.andi x v reducesTo_S128x4096x64_S_d0_1_2 h_S_) main_v2 main_c
  let main_v4 : FVec F S128x64x256 .f32 := Host.absf main_arg1
  let main_cst_0 : FVec F S_ .f32 := constant S_ .f32 0x7F800000#32
  let main_v5 : FVec F S128x64x256 .f32 := broadcastInDim S128x64x256 ![] bcast_S_S128x64x256 main_cst_0
  let main_v6 : IVec S128x64x256 1 := cmpf .olt main_v4 main_v5
  let main_c_1 : IVec S_ 1 := constantI S_ 1 1#1
  let main_v7 : IVec S_ 1 := (fun x v => Host.reduce IntOp.andi x v reducesTo_S128x64x256_S_d0_1_2 h_S_) main_v6 main_c_1
  let main_v8 : IVec S_ 1 := andi main_v3 main_v7
  let main_v9 : FVec F S128x256x64 .f32 := Host.absf main_arg2
  let main_cst_2 : FVec F S_ .f32 := constant S_ .f32 0x7F800000#32
  let main_v10 : FVec F S128x256x64 .f32 := broadcastInDim S128x256x64 ![] bcast_S_S128x256x64 main_cst_2
  let main_v11 : IVec S128x256x64 1 := cmpf .olt main_v9 main_v10
  let main_c_3 : IVec S_ 1 := constantI S_ 1 1#1
  let main_v12 : IVec S_ 1 := (fun x v => Host.reduce IntOp.andi x v reducesTo_S128x256x64_S_d0_1_2 h_S_) main_v11 main_c_3
  let main_v13 : IVec S_ 1 := andi main_v8 main_v12
  main_v13
-- ==== Kernel.lean ====
abbrev S128x4096x64 : Shape := ⟨3, ![128, 4096, 64]⟩
abbrev S128x64x256 : Shape := ⟨3, ![128, 64, 256]⟩
abbrev S128x256x64 : Shape := ⟨3, ![128, 256, 64]⟩
abbrev S8x4096x64 : Shape := ⟨3, ![8, 4096, 64]⟩
abbrev S8x64x256 : Shape := ⟨3, ![8, 64, 256]⟩
abbrev S8x256x64 : Shape := ⟨3, ![8, 256, 64]⟩
abbrev S1x4096x64 : Shape := ⟨3, ![1, 4096, 64]⟩
abbrev S4096x64 : Shape := ⟨2, ![4096, 64]⟩
abbrev S1x64x256 : Shape := ⟨3, ![1, 64, 256]⟩
abbrev S64x256 : Shape := ⟨2, ![64, 256]⟩
abbrev S1x256x64 : Shape := ⟨3, ![1, 256, 64]⟩
abbrev S256x64 : Shape := ⟨2, ![256, 64]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S128x4096x64, .f32⟩
  | .hbm, ⟨1, _⟩ => ⟨S128x64x256, .f32⟩
  | .hbm, ⟨2, _⟩ => ⟨S128x256x64, .f32⟩
  | .hbm, ⟨3, _⟩ => ⟨S128x4096x64, .f32⟩
  | .local _ .vmem, ⟨0, _⟩ => ⟨S8x4096x64, .f32⟩
  | .local _ .vmem, ⟨1, _⟩ => ⟨S8x4096x64, .f32⟩
  | .local _ .vmem, ⟨2, _⟩ => ⟨S8x64x256, .f32⟩
  | .local _ .vmem, ⟨3, _⟩ => ⟨S8x64x256, .f32⟩
  | .local _ .vmem, ⟨4, _⟩ => ⟨S8x256x64, .f32⟩
  | .local _ .vmem, ⟨5, _⟩ => ⟨S8x256x64, .f32⟩
  | .local _ .vmem, ⟨6, _⟩ => ⟨S8x4096x64, .f32⟩
  | .local _ .vmem, ⟨7, _⟩ => ⟨S8x4096x64, .f32⟩
  | _, _ => ⟨S128x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1 : Index := Scalar.indexCast arg5
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v4 : Index := Scalar.indexCast arg5
  let c0_2 : Index := 0#32
  let c0_3 : Index := 0#32
  ![v4.toNat, 0, 0]
def k0_off3 (k0_t1 : Fin k0_t1_loop.trips) : Fin 3 → Nat :=
  let c0_i32 : BitVec 32 := 0#32
  let c1_i32 : BitVec 32 := 1#32
  let arg5 : BitVec 32 := Scf.iv c0_i32 c1_i32 k0_t1
  let v8 : Index := Scalar.indexCast arg5
  let c0_4 : Index := 0#32
  let c0_5 : Index := 0#32
  ![v8.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  h_S1x4096x64 : 0 < S1x4096x64.numel
  shapeCasts_S1x4096x64_S4096x64 : S1x4096x64.ShapeCasts S4096x64
  h_S1x64x256 : 0 < S1x64x256.numel
  shapeCasts_S1x64x256_S64x256 : S1x64x256.ShapeCasts S64x256
  bitsLt_bf16_f32 : FTy.bits .bf16 < FTy.bits .f32
  h_S1x256x64 : 0 < S1x256x64.numel
  shapeCasts_S1x256x64_S256x64 : S1x256x64.ShapeCasts S256x64
  shapeCasts_S4096x64_S1x4096x64 : S4096x64.ShapeCasts S1x4096x64
  dot_S4096x64_S64x256_S4096x256_1_0_0_1_n_n_wf : DotDims.WF S4096x64 S64x256 S4096x256 [1] [0] [0] [1] [] []
  dot_S4096x256_S256x64_S4096x64_1_0_0_1_n_n_wf : DotDims.WF S4096x256 S256x64 S4096x64 [1] [0] [0] [1] [] []
  hrank0 : 0 < grid0.rank
  k0_t1_ok : k0_t1_loop.OK
  k0_off1_inb : ∀ k0_t1 : Fin k0_t1_loop.trips, ∀ a, (k0_off1 k0_t1) a + S1x4096x64.size a ≤ S8x4096x64.size a
  k0_off2_inb : ∀ k0_t1 : Fin k0_t1_loop.trips, ∀ a, (k0_off2 k0_t1) a + S1x64x256.size a ≤ S8x64x256.size a
  k0_off3_inb : ∀ k0_t1 : Fin k0_t1_loop.trips, ∀ a, (k0_off3 k0_t1) a + S1x256x64.size a ≤ S8x256x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4096x64.size a ≤ S128x4096x64.size a
  hwx0_0 : ∀ i : grid0.Coords, EltTy.bits .f32 = 32 ∨ (Rect.block (s := S128x4096x64) S8x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x256.size a ≤ S128x64x256.size a
  hwx0_1 : ∀ i : grid0.Coords, EltTy.bits .f32 = 32 ∨ (Rect.block (s := S128x64x256) S8x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x64.size a ≤ S128x256x64.size a
  hwx0_2 : ∀ i : grid0.Coords, EltTy.bits .f32 = 32 ∨ (Rect.block (s := S128x256x64) S8x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4096x64.size a ≤ S128x4096x64.size a
  hwx0_3 : ∀ i : grid0.Coords, EltTy.bits .f32 = 32 ∨ (Rect.block (s := S128x4096x64) S8x4096x64.size (cc0_transform_3 i) (hinb0_3 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_arg0) S8x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x4096x64 : Shape := ⟨3, ![128, 4096, 64]⟩
abbrev S128x64x256 : Shape := ⟨3, ![128, 64, 256]⟩
abbrev S128x256x64 : Shape := ⟨3, ![128, 256, 64]⟩
abbrev S128x4096x256 : Shape := ⟨3, ![128, 4096, 256]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S128x4096x64, .f32⟩
  | .hbm, ⟨1, _⟩ => ⟨S128x64x256, .f32⟩
  | .hbm, ⟨2, _⟩ => ⟨S128x256x64, .f32⟩
  | .hbm, ⟨3, _⟩ => ⟨S128x4096x256, .f32⟩
  | .hbm, ⟨4, _⟩ => ⟨S128x4096x256, .f32⟩
  | .hbm, ⟨5, _⟩ => ⟨S128x4096x256, .f32⟩
  | .hbm, ⟨6, _⟩ => ⟨S_, .f32⟩
  | .hbm, ⟨7, _⟩ => ⟨S128x4096x256, .f32⟩
  | .hbm, ⟨8, _⟩ => ⟨S128x4096x256, .f32⟩
  | .hbm, ⟨9, _⟩ => ⟨S_, .f32⟩
  | .hbm, ⟨10, _⟩ => ⟨S128x4096x256, .f32⟩
  | .hbm, ⟨11, _⟩ => ⟨S128x4096x256, .f32⟩
  | .hbm, ⟨12, _⟩ => ⟨S128x4096x256, .f32⟩
  | .hbm, ⟨13, _⟩ => ⟨S128x4096x64, .f32⟩
  | .hbm, ⟨14, _⟩ => ⟨S128x4096x64, .f32⟩
  | _, _ => ⟨S128x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]

class Facts₀ : Prop where
  bcast_S_S128x4096x256 : S_.BroadcastsInDim S128x4096x256 (![] : Fin 0 → Fin S128x4096x256.rank)
  dot_S128x4096x64_S128x64x256_S128x4096x256_2_1_1_2_0_0_wf : DotDims.WF S128x4096x64 S128x64x256 S128x4096x256 [2] [1] [1] [2] [0] [0]
  dot_S128x4096x256_S128x256x64_S128x4096x64_2_1_1_2_0_0_wf : DotDims.WF S128x4096x256 S128x256x64 S128x4096x64 [2] [1] [1] [2] [0] [0]

variable [Facts₀]

def dot_S128x4096x64_S128x64x256_S128x4096x256_2_1_1_2_0_0 : DotDims S128x4096x64 S128x64x256 S128x4096x256 where
  lhsContracting := [2]
  rhsContracting := [1]
  lhsNonContracting := [1]
  rhsNonContracting := [2]
  lhsBatch := [0]
  rhsBatch := [0]
  wf := dot_S128x4096x64_S128x64x256_S128x4096x256_2_1_1_2_0_0_wf
def dot_S128x4096x256_S128x256x64_S128x4096x64_2_1_1_2_0_0 : DotDims S128x4096x256 S128x256x64 S128x4096x64 where
  lhsContracting := [2]
  rhsContracting := [1]
  lhsNonContracting := [1]
  rhsNonContracting := [2]
  lhsBatch := [0]
  rhsBatch := [0]
  wf := dot_S128x4096x256_S128x256x64_S128x4096x64_2_1_1_2_0_0_wf

class Facts : Prop extends Facts₀ where

variable [Facts]
-- ==== Proof.Spec.lean ====
/-
  The function both programs compute, stated once over the three argument arrays and free of either program.

  There are 128 independent two-layer perceptrons. Perceptron `b` owns a block of 4096 tokens of width 64, a first weight
  matrix of shape 64 × 256 and a second of shape 256 × 64. For token `s` and output coordinate `d`:

    hidden b s h = ∑ k < 64, x[b, s, k] · W1[b, k, h]
    out[b, s, d] = (∑ h < 256, silu (hidden b s h) · W2[b, h, d]) + x[b, s, d]

  with `silu t = t · logistic t` and `logistic t = 1 / (1 + e^(-t))` read on the extended reals (at `-∞` it is `0`, at `+∞`
  it is `1`). Both programs form exactly these sums, in this arrangement, so no law that needs finite entries (distributivity,
  cancellation) is used anywhere: only that the same sum is written twice.
-/
import Idealize.ShloMosaic.PureOps.Ideal
import Idealize.ShloMosaic.Lib.ValueIdx

noncomputable section

namespace Cert.Mlp

open Idealize.ShloMosaic Idealize.ShloMosaic.ValueIdx

/-- The shape of the token array and of the result: 128 perceptrons × 4096 tokens × width 64. -/
abbrev ShX : Shape := ⟨3, ![128, 4096, 64]⟩
/-- The shape of the first layer's weights: 128 × 64 × 256. -/
abbrev ShW1 : Shape := ⟨3, ![128, 64, 256]⟩
/-- The shape of the second layer's weights: 128 × 256 × 64. -/
abbrev ShW2 : Shape := ⟨3, ![128, 256, 64]⟩

/-- `silu t = t · 1 / (1 + e^(-t))` on the extended reals. -/
def silu (t : EReal) : EReal := t * Ideal.logistic t

/-- The first layer before its activation: row `s` of perceptron `b`'s tokens against column `h` of its first weights. -/
def hidden (x : ShX.Idx → EReal) (w1 : ShW1.Idx → EReal) (b : Fin 128) (s : Fin 4096) (h : Fin 256) : EReal :=
  ∑ k : Fin 64, x (ix3 b s k) * w1 (ix3 b k h)

/-- The second layer before the residual: the activated hidden row against column `d` of the second weights. -/
def second (x : ShX.Idx → EReal) (w1 : ShW1.Idx → EReal) (w2 : ShW2.Idx → EReal)
    (b : Fin 128) (s : Fin 4096) (d : Fin 64) : EReal :=
  ∑ h : Fin 256, silu (hidden x w1 b s h) * w2 (ix3 b h d)

/-- The whole result, entry by entry: the second layer plus the token itself. -/
def result (x : ShX.Idx → EReal) (w1 : ShW1.Idx → EReal) (w2 : ShW2.Idx → EReal) : ShX.Idx → EReal :=
  fun i => second x w1 w2 (i 0) (i 1) (i 2) + x i

theorem result_ix3 (x : ShX.Idx → EReal) (w1 : ShW1.Idx → EReal) (w2 : ShW2.Idx → EReal)
    (b : Fin 128) (s : Fin 4096) (d : Fin 64) :
    result x w1 w2 (ix3 b s d) = second x w1 w2 b s d + x (ix3 b s d) := rfl

/-- The f32 word of `1.0` denotes the real one. -/
theorem ofBits_one : Ideal.ofBits .f32 0x3F800000#32 = (1 : EReal) := by
  simp [Ideal.ofBits, Ideal.ieee, -EReal.coe_mul]; norm_num

/-- The reference spells the logistic out as `1 / (1 + e^(-t))` with the word of `1.0` twice; that is the one function
    `logistic` on every extended real. -/
theorem logistic_spelled (t : EReal) :
    Ideal.div (Ideal.ofBits .f32 0x3F800000#32) (Ideal.ofBits .f32 0x3F800000#32 + Ideal.exp (-t)) = Ideal.logistic t := by
  rw [ofBits_one]; rfl

end Cert.Mlp

end
-- ==== Proof.RefSpec.lean ====
/-
  The reference's result, read entry by entry, is the specification `Cert.Mlp.result`.

  The reference forms the first batched product over the width axis (64 terms), applies `t ↦ t · (1 / (1 + e^(-t)))` with the
  logistic spelled out by its host operations, forms the second batched product over the hidden axis (256 terms) and adds the
  token. Each batched product, read at an index `(b, s, ·)`, is the sum over its contracted axis of the two operands at
  `(b, s, k)` and `(b, k, ·)`: the batch coordinate is shared, the contracted coordinate runs.
-/
import proofs.«171998_j47571057770918_2_alg».proof.Proof.Gen.ReferenceIdeal.Read
import proofs.«171998_j47571057770918_2_alg».proof.Proof.Spec

noncomputable section

namespace Cert.Mlp.Ref

open Idealize.ShloMosaic Idealize.ShloMosaic.ValueIdx Cert.ReferenceIdeal Cert.ReferenceIdeal.Read

/-- In the second product, entry `(b, s, d)` reads the activated hidden row at `(b, s, h)`. -/
theorem left2 (b : Fin 128) (s : Fin 4096) (d : Fin 64) (h : Fin 256) :
    lidx_main_v2 (ix3 b s d) h = ix3 b s h :=
  funext fun a => Fin.ext (by match a with | ⟨0, _⟩ => rfl | ⟨1, _⟩ => rfl | ⟨2, _⟩ => rfl)

/-- … and the second weights at `(b, h, d)`. -/
theorem right2 (b : Fin 128) (s : Fin 4096) (d : Fin 64) (h : Fin 256) :
    ridx_main_v2 (ix3 b s d) h = ix3 b h d :=
  funext fun a => Fin.ext (by match a with | ⟨0, _⟩ => rfl | ⟨1, _⟩ => rfl | ⟨2, _⟩ => rfl)

/-- In the first product, entry `(b, s, h)` reads the token at `(b, s, k)`. -/
theorem left0 (b : Fin 128) (s : Fin 4096) (h : Fin 256) (k : Fin 64) :
    lidx_main_v0 (ix3 b s h) k = ix3 b s k :=
  funext fun a => Fin.ext (by match a with | ⟨0, _⟩ => rfl | ⟨1, _⟩ => rfl | ⟨2, _⟩ => rfl)

/-- … and the first weights at `(b, k, h)`. -/
theorem right0 (b : Fin 128) (s : Fin 4096) (h : Fin 256) (k : Fin 64) :
    ridx_main_v0 (ix3 b s h) k = ix3 b k h :=
  funext fun a => Fin.ext (by match a with | ⟨0, _⟩ => rfl | ⟨1, _⟩ => rfl | ⟨2, _⟩ => rfl)

/-- The first product at `(b, s, h)` is the specification's hidden value. -/
theorem first_eq (x : ShX.Idx → EReal) (w1 : ShW1.Idx → EReal) (b : Fin 128) (s : Fin 4096) (h : Fin 256) :
    val_main_v0 (F := Ideal) x w1 (ix3 b s h) = hidden x w1 b s h := by
  rw [val_main_v0_apply]
  simp only [left0, right0]
  rfl

/-- The activation as the reference spells it, at `(b, s, h)`, is `silu` of the hidden value. -/
theorem act_eq (x : ShX.Idx → EReal) (w1 : ShW1.Idx → EReal) (b : Fin 128) (s : Fin 4096) (h : Fin 256) :
    val_main_v1 (F := Ideal) x w1 (ix3 b s h) = silu (hidden x w1 b s h) := by
  rw [val_main_v1_apply, val_main_call0_v5_apply, val_main_call0_v4_apply, val_main_call0_cst_0_apply,
    val_main_call0_v3_apply, val_main_call0_v2_apply, val_main_call0_cst_apply, val_main_call0_v1_apply,
    val_main_call0_v0_apply, first_eq]
  simp only [Ideal.mulf_def, Ideal.hostDivf_def, Ideal.addf_def, Ideal.hostUnary_exp_def, Ideal.hostNegf_def,
    Ideal.negf_def, Ideal.ofBits_def, logistic_spelled]
  rfl

/-- The reference's result is the specification. -/
theorem result_eq (x : ShX.Idx → EReal) (w1 : ShW1.Idx → EReal) (w2 : ShW2.Idx → EReal) :
    val_main_v3 (F := Ideal) x w1 w2 = result x w1 w2 := by
  funext i
  obtain ⟨b, s, d, rfl⟩ : ∃ (b : Fin 128) (s : Fin 4096) (d : Fin 64), i = ix3 b s d := ⟨i 0, i 1, i 2, eq_ix3 i⟩
  rw [val_main_v3_apply, val_main_v2_apply, result_ix3]
  simp only [left2, right2, act_eq]
  rfl

end Cert.Mlp.Ref

end
-- ==== Proof.Body.lean ====
/-
  One perceptron's slab, entry by entry.

  Each trip of the kernel's loop takes one perceptron's three slabs — tokens `[1, 4096, 64]`, first weights `[1, 64, 256]`,
  second weights `[1, 256, 64]` — drops the leading unit axis, multiplies tokens by first weights (a sum over the 64 width
  coordinates), applies `t ↦ t · logistic t`, multiplies by the second weights (a sum over the 256 hidden coordinates), adds
  the tokens back and restores the unit axis. Changes of float format are the identity on the extended reals, and a matrix
  product into a zero accumulator is the plain sum of products. So the slab's entry `(0, s, d)` is

    (∑ h < 256, silu (∑ k < 64, tokens (0, s, k) · W1 (0, k, h)) · W2 (0, h, d)) + tokens (0, s, d).
-/
import proofs.«171998_j47571057770918_2_alg».proof.Proof.Gen.KernelIdeal.Skeleton
import proofs.«171998_j47571057770918_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Mlp.Body

open Idealize.ShloMosaic Idealize.ShloMosaic.ValueIdx Cert.KernelIdeal Cert.KernelIdeal.Gen

/-! ## The two matrix products read at an index -/

/-- In the first product the left operand's row coordinate is the output's row. -/
theorem first_lhs_row (j : S4096x256.Idx) (q : dot_S4096x64_S64x256_S4096x256_1_0_0_1_n_n.contr.Idx) :
    (dot_S4096x64_S64x256_S4096x256_1_0_0_1_n_n.lhsIdx j q 0).val = (j 0).val := by
  unfold DotDims.lhsIdx
  rw [dif_neg (show ¬(0 : Fin S4096x64.rank) ∈ dot_S4096x64_S64x256_S4096x256_1_0_0_1_n_n.lhsBatch by decide),
    dif_pos (show (0 : Fin S4096x64.rank) ∈ dot_S4096x64_S64x256_S4096x256_1_0_0_1_n_n.lhsNonContracting by decide)]
  rfl

/-- In the first product the right operand's column coordinate is the output's column. -/
theorem first_rhs_col (j : S4096x256.Idx) (q : dot_S4096x64_S64x256_S4096x256_1_0_0_1_n_n.contr.Idx) :
    (dot_S4096x64_S64x256_S4096x256_1_0_0_1_n_n.rhsIdx j q 1).val = (j 1).val := by
  unfold DotDims.rhsIdx
  rw [dif_neg (show ¬(1 : Fin S64x256.rank) ∈ dot_S4096x64_S64x256_S4096x256_1_0_0_1_n_n.rhsBatch by decide),
    dif_pos (show (1 : Fin S64x256.rank) ∈ dot_S4096x64_S64x256_S4096x256_1_0_0_1_n_n.rhsNonContracting by decide)]
  rfl

/-- The first product into a zero accumulator, at `(s, h)`: the sum over the width coordinate. -/
theorem first_at (a : FVec Ideal S4096x64 .bf16) (w : FVec Ideal S64x256 .bf16) (s : Fin 4096) (h : Fin 256) :
    matmul dot_S4096x64_S64x256_S4096x256_1_0_0_1_n_n none a w (constant (F := Ideal) S4096x256 .f32 0x00000000#32) (ix2 s h)
      = ∑ k : Fin 64, a (ix2 s k) * w (ix2 k h) := by
  simp only [matmul]
  rw [Ideal.matmul_constant_zero_apply,
    ← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 s h)
      ((contrEquiv1 dot_S4096x64_S64x256_S4096x256_1_0_0_1_n_n 64 rfl rfl).symm k) = ix2 s k :=
    funext fun c => Fin.ext (by
      match c with
      | ⟨0, _⟩ => exact first_lhs_row _ _
      | ⟨1, _⟩ => exact (dot_S4096x64_S64x256_S4096x256_1_0_0_1_n_n.lhsIdx_val_of_single rfl _ _).trans hk)
  have er : dot_S4096x64_S64x256_S4096x256_1_0_0_1_n_n.rhsIdx (ix2 s h)
      ((contrEquiv1 dot_S4096x64_S64x256_S4096x256_1_0_0_1_n_n 64 rfl rfl).symm k) = ix2 k h :=
    funext fun c => Fin.ext (by
      match c with
      | ⟨0, _⟩ => exact (dot_S4096x64_S64x256_S4096x256_1_0_0_1_n_n.rhsIdx_val_of_single rfl _ _).trans hk
      | ⟨1, _⟩ => exact first_rhs_col _ _)
  rw [el, er]

/-- In the second product the left operand's row coordinate is the output's row. -/
theorem second_lhs_row (j : S4096x64.Idx) (q : dot_S4096x256_S256x64_S4096x64_1_0_0_1_n_n.contr.Idx) :
    (dot_S4096x256_S256x64_S4096x64_1_0_0_1_n_n.lhsIdx j q 0).val = (j 0).val := by
  unfold DotDims.lhsIdx
  rw [dif_neg (show ¬(0 : Fin S4096x256.rank) ∈ dot_S4096x256_S256x64_S4096x64_1_0_0_1_n_n.lhsBatch by decide),
    dif_pos (show (0 : Fin S4096x256.rank) ∈ dot_S4096x256_S256x64_S4096x64_1_0_0_1_n_n.lhsNonContracting by decide)]
  rfl

/-- In the second product the right operand's column coordinate is the output's column. -/
theorem second_rhs_col (j : S4096x64.Idx) (q : dot_S4096x256_S256x64_S4096x64_1_0_0_1_n_n.contr.Idx) :
    (dot_S4096x256_S256x64_S4096x64_1_0_0_1_n_n.rhsIdx j q 1).val = (j 1).val := by
  unfold DotDims.rhsIdx
  rw [dif_neg (show ¬(1 : Fin S256x64.rank) ∈ dot_S4096x256_S256x64_S4096x64_1_0_0_1_n_n.rhsBatch by decide),
    dif_pos (show (1 : Fin S256x64.rank) ∈ dot_S4096x256_S256x64_S4096x64_1_0_0_1_n_n.rhsNonContracting by decide)]
  rfl

/-- The second product into a zero accumulator, at `(s, d)`: the sum over the hidden coordinate. -/
theorem second_at (a : FVec Ideal S4096x256 .bf16) (w : FVec Ideal S256x64 .bf16) (s : Fin 4096) (d : Fin 64) :
    matmul dot_S4096x256_S256x64_S4096x64_1_0_0_1_n_n none a w (constant (F := Ideal) S4096x64 .f32 0x00000000#32) (ix2 s d)
      = ∑ h : Fin 256, a (ix2 s h) * w (ix2 h d) := by
  simp only [matmul]
  rw [Ideal.matmul_constant_zero_apply,
    ← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  have el : dot_S4096x256_S256x64_S4096x64_1_0_0_1_n_n.lhsIdx (ix2 s d)
      ((contrEquiv1 dot_S4096x256_S256x64_S4096x64_1_0_0_1_n_n 256 rfl rfl).symm k) = ix2 s k :=
    funext fun c => Fin.ext (by
      match c with
      | ⟨0, _⟩ => exact second_lhs_row _ _
      | ⟨1, _⟩ => exact (dot_S4096x256_S256x64_S4096x64_1_0_0_1_n_n.lhsIdx_val_of_single rfl _ _).trans hk)
  have er : dot_S4096x256_S256x64_S4096x64_1_0_0_1_n_n.rhsIdx (ix2 s d)
      ((contrEquiv1 dot_S4096x256_S256x64_S4096x64_1_0_0_1_n_n 256 rfl rfl).symm k) = ix2 k d :=
    funext fun c => Fin.ext (by
      match c with
      | ⟨0, _⟩ => exact (dot_S4096x256_S256x64_S4096x64_1_0_0_1_n_n.rhsIdx_val_of_single rfl _ _).trans hk
      | ⟨1, _⟩ => exact second_rhs_col _ _)
  rw [el, er]

/-! ## The slab's computation, stage by stage -/

/-- The token slab without its unit axis. -/
def tok (v2 : Vec Ideal S1x4096x64 .f32) : FVec Ideal S4096x64 .f32 :=
  shapeCast S4096x64 v2 shapeCasts_S1x4096x64_S4096x64

/-- Tokens times first weights. -/
def hid (v2 : Vec Ideal S1x4096x64 .f32) (v5 : Vec Ideal S1x64x256 .f32) : FVec Ideal S4096x256 .f32 :=
  matmul dot_S4096x64_S64x256_S4096x256_1_0_0_1_n_n none (truncf .bf16 (tok v2) bitsLt_bf16_f32)
    (truncf .bf16 (shapeCast S64x256 v5 shapeCasts_S1x64x256_S64x256) bitsLt_bf16_f32)
    (constant S4096x256 .f32 0x00000000#32)

/-- The activation `t · logistic t`. -/
def act (v2 : Vec Ideal S1x4096x64 .f32) (v5 : Vec Ideal S1x64x256 .f32) : FVec Ideal S4096x256 .f32 :=
  mulf (hid v2 v5) (logistic (hid v2 v5))

/-- Activated hidden rows times second weights. -/
def sec (v2 : Vec Ideal S1x4096x64 .f32) (v5 : Vec Ideal S1x64x256 .f32) (v9 : Vec Ideal S1x256x64 .f32) :
    FVec Ideal S4096x64 .f32 :=
  matmul dot_S4096x256_S256x64_S4096x64_1_0_0_1_n_n none (truncf .bf16 (act v2 v5) bitsLt_bf16_f32)
    (truncf .bf16 (shapeCast S256x64 v9 shapeCasts_S1x256x64_S256x64) bitsLt_bf16_f32)
    (constant S4096x64 .f32 0x00000000#32)

/-- The value a trip stores is these stages composed, the unit axis restored. -/
theorem pay_stages (v2 : Vec Ideal S1x4096x64 .f32) (v5 : Vec Ideal S1x64x256 .f32) (v9 : Vec Ideal S1x256x64 .f32) :
    k0_pay1 (F := Ideal) v2 v5 v9
      = shapeCast S1x4096x64 (addf (sec v2 v5 v9) (tok v2)) shapeCasts_S4096x64_S1x4096x64 := rfl

theorem tok_at (v2 : Vec Ideal S1x4096x64 .f32) (s : Fin 4096) (d : Fin 64) :
    tok v2 (ix2 s d) = v2 (ix3 (0 : Fin 1) s d) :=
  shapeCast_1ab_ab_apply v2 shapeCasts_S1x4096x64_S4096x64 s d

theorem hid_at (v2 : Vec Ideal S1x4096x64 .f32) (v5 : Vec Ideal S1x64x256 .f32) (s : Fin 4096) (h : Fin 256) :
    hid v2 v5 (ix2 s h) = ∑ k : Fin 64, v2 (ix3 (0 : Fin 1) s k) * v5 (ix3 (0 : Fin 1) k h) := by
  unfold hid
  refine (first_at _ _ s h).trans (Finset.sum_congr rfl fun k _ => ?_)
  show tok v2 (ix2 s k) * shapeCast S64x256 v5 shapeCasts_S1x64x256_S64x256 (ix2 k h) = _
  rw [tok_at, shapeCast_1ab_ab_apply]

theorem act_at (v2 : Vec Ideal S1x4096x64 .f32) (v5 : Vec Ideal S1x64x256 .f32) (s : Fin 4096) (h : Fin 256) :
    act v2 v5 (ix2 s h) = silu (hid v2 v5 (ix2 s h)) := rfl

theorem sec_at (v2 : Vec Ideal S1x4096x64 .f32) (v5 : Vec Ideal S1x64x256 .f32) (v9 : Vec Ideal S1x256x64 .f32)
    (s : Fin 4096) (d : Fin 64) :
    sec v2 v5 v9 (ix2 s d) = ∑ h : Fin 256, silu (hid v2 v5 (ix2 s h)) * v9 (ix3 (0 : Fin 1) h d) := by
  unfold sec
  refine (second_at _ _ s d).trans (Finset.sum_congr rfl fun h _ => ?_)
  show act v2 v5 (ix2 s h) * shapeCast S256x64 v9 shapeCasts_S1x256x64_S256x64 (ix2 h d) = _
  rw [act_at, shapeCast_1ab_ab_apply]

/-- The stored slab at `(0, s, d)`. -/
theorem pay_at (v2 : Vec Ideal S1x4096x64 .f32) (v5 : Vec Ideal S1x64x256 .f32) (v9 : Vec Ideal S1x256x64 .f32)
    (s : Fin 4096) (d : Fin 64) :
    k0_pay1 (F := Ideal) v2 v5 v9 (ix3 (0 : Fin 1) s d)
      = (∑ h : Fin 256, silu (∑ k : Fin 64, v2 (ix3 (0 : Fin 1) s k) * v5 (ix3 (0 : Fin 1) k h)) * v9 (ix3 (0 : Fin 1) h d))
        + v2 (ix3 (0 : Fin 1) s d) := by
  rw [pay_stages]
  refine (shapeCast_ab_1ab_apply _ shapeCasts_S4096x64_S1x4096x64 (0 : Fin 1) s d).trans ?_
  show sec v2 v5 v9 (ix2 s d) + tok v2 (ix2 s d) = _
  rw [sec_at, tok_at]
  simp only [hid_at]

end Cert.Mlp.Body

end
-- ==== Proof.Tiles.lean ====
/-
  What one grid point leaves in the output's staging buffer.

  A grid point handles eight perceptrons, one per trip of the body's loop. Trip `k` reads slab `k` of each of the three staged
  blocks (offsets `(k, 0, 0)`, whole in the other two axes), computes that perceptron's slab (`Cert.Mlp.Body`) and stores it
  as slab `k` of the output block. The eight stores are equal-sized tiles kept apart by the first axis, so entry `(bb, s, d)`
  of the block is entry `(0, s, d)` of trip `bb`'s slab, whatever the buffer held before: the stores cover it.
-/
import proofs.«171998_j47571057770918_2_alg».proof.Proof.Gen.KernelIdeal.Frame
import proofs.«171998_j47571057770918_2_alg».proof.Proof.Body
import Idealize.ShloMosaic.Lib.WritesUnit
import Idealize.ShloMosaic.Lib.WholeRead

set_option maxRecDepth 16384

noncomputable section

namespace Cert.Mlp.Tiles

open Idealize.ShloMosaic Idealize.ShloMosaic.ValueIdx Cert.KernelIdeal Cert.KernelIdeal.Gen Idealize.SL.Sem

/-- The loop makes eight trips. -/
theorem trips_eq : k0_t1_loop.trips = 8 := by decide +kernel

/-- Trip `k`'s slab of the staged token block. -/
def slabX (x0 : Vec Ideal S8x4096x64 .f32) (k : Fin k0_t1_loop.trips) : Vec Ideal S1x4096x64 .f32 :=
  fun y => x0 ((Rect.unit (s := S8x4096x64) (k0_off1 k) S1x4096x64.size (Gen.k0_off1_inb k)).toLoadRect.idx y)

/-- Trip `k`'s slab of the staged first weights. -/
def slabW1 (x1 : Vec Ideal S8x64x256 .f32) (k : Fin k0_t1_loop.trips) : Vec Ideal S1x64x256 .f32 :=
  fun y => x1 ((Rect.unit (s := S8x64x256) (k0_off2 k) S1x64x256.size (Gen.k0_off2_inb k)).toLoadRect.idx y)

/-- Trip `k`'s slab of the staged second weights. -/
def slabW2 (x2 : Vec Ideal S8x256x64 .f32) (k : Fin k0_t1_loop.trips) : Vec Ideal S1x256x64 .f32 :=
  fun y => x2 ((Rect.unit (s := S8x256x64) (k0_off3 k) S1x256x64.size (Gen.k0_off3_inb k)).toLoadRect.idx y)

/-- The slab trip `k` stores. -/
def tile (x0 : Vec Ideal S8x4096x64 .f32) (x1 : Vec Ideal S8x64x256 .f32) (x2 : Vec Ideal S8x256x64 .f32) (k : Fin k0_t1_loop.trips) : Vec Ideal S1x4096x64 .f32 :=
  k0_pay1 (F := Ideal) (slabX x0 k) (slabW1 x1 k) (slabW2 x2 k)

/-- One trip stores exactly one piece: its slab, at offsets `(k, 0, 0)`. -/
theorem trip_piece (𝒱 : Variants) (c : Dev nD) (bd : Option 𝒱.V) (i : grid0.Coords) (arg1 : Memref sig .tc .vmem S8x4096x64 .f32) (harg1 : arg1.IsWhole) (arg2 : Memref sig .tc .vmem S8x64x256 .f32) (harg2 : arg2.IsWhole) (arg3 : Memref sig .tc .vmem S8x256x64 .f32) (harg3 : arg3.IsWhole) (arg4 : Memref sig .tc .vmem S8x4096x64 .f32) (harg4 : arg4.IsWhole)
    (x0 : Vec Ideal S8x4096x64 .f32) (x1 : Vec Ideal S8x64x256 .f32) (x2 : Vec Ideal S8x256x64 .f32) (k : Fin k0_t1_loop.trips) :
    tripL_k0_t1 (F := Ideal) 𝒱 c bd i arg1 harg1 arg2 harg2 arg3 harg3 arg4 harg4 (harg1.unread x0) (harg2.unread x1) (harg3.unread x2) k
      = [⟨Rect.unit (s := S8x4096x64) (k0_off1 k) S1x4096x64.size (Gen.k0_off1_inb k), tile x0 x1 x2 k⟩] := by
  unfold tripL_k0_t1 trip_k0_t1
  dsimp only
  have e1 : View.readAt (Elt Ideal) arg1.view (Rect.unit (s := S8x4096x64) (k0_off1 k) S1x4096x64.size (Gen.k0_off1_inb k)).toLoadRect (harg1.unread x0)
      = slabX x0 k := funext fun y => harg1.readAt_unread x0 _ y
  have e2 : View.readAt (Elt Ideal) arg2.view (Rect.unit (s := S8x64x256) (k0_off2 k) S1x64x256.size (Gen.k0_off2_inb k)).toLoadRect (harg2.unread x1)
      = slabW1 x1 k := funext fun y => harg2.readAt_unread x1 _ y
  have e3 : View.readAt (Elt Ideal) arg3.view (Rect.unit (s := S8x256x64) (k0_off3 k) S1x256x64.size (Gen.k0_off3_inb k)).toLoadRect (harg3.unread x2)
      = slabW2 x2 k := funext fun y => harg3.readAt_unread x2 _ y
  unfold tile
  rw [← e1, ← e2, ← e3]

/-- The pieces of the first `j` trips are the first `j` tiles. -/
theorem pieces_eq_tiles (𝒱 : Variants) (c : Dev nD) (bd : Option 𝒱.V) (i : grid0.Coords) (arg1 : Memref sig .tc .vmem S8x4096x64 .f32) (harg1 : arg1.IsWhole) (arg2 : Memref sig .tc .vmem S8x64x256 .f32) (harg2 : arg2.IsWhole) (arg3 : Memref sig .tc .vmem S8x256x64 .f32) (harg3 : arg3.IsWhole) (arg4 : Memref sig .tc .vmem S8x4096x64 .f32) (harg4 : arg4.IsWhole)
    (x0 : Vec Ideal S8x4096x64 .f32) (x1 : Vec Ideal S8x64x256 .f32) (x2 : Vec Ideal S8x256x64 .f32) : ∀ (j : ℕ) (hj : j ≤ k0_t1_loop.trips),
    pb_k0_t1 (F := Ideal) 𝒱 c bd i arg1 harg1 arg2 harg2 arg3 harg3 arg4 harg4 (harg1.unread x0) (harg2.unread x1) (harg3.unread x2) j
      = View.tilePieces (s := S8x4096x64) (e := .f32) (Val := Elt Ideal) (NT := k0_t1_loop.trips) S1x4096x64.size
          (fun k => k0_off1 k) (fun k => Gen.k0_off1_inb k) (fun k => tile x0 x1 x2 k) j hj
  | 0, _ => rfl
  | j + 1, hj => by
    have hs := pb_k0_t1_succ (F := Ideal) 𝒱 c bd i arg1 harg1 arg2 harg2 arg3 harg3 arg4 harg4 (harg1.unread x0) (harg2.unread x1) (harg3.unread x2) ⟨j, hj⟩
    rw [trip_piece, pieces_eq_tiles 𝒱 c bd i arg1 harg1 arg2 harg2 arg3 harg3 arg4 harg4 x0 x1 x2 j (Nat.le_of_succ_le hj)] at hs
    exact hs

/-- Entry `(bb, s, d)` of the block a grid point leaves is entry `(0, s, d)` of trip `bb`'s slab. -/
theorem out_at (c : Dev nD) (i : grid0.Coords) (arg1 : Memref sig .tc .vmem S8x4096x64 .f32) (harg1 : arg1.IsWhole) (arg2 : Memref sig .tc .vmem S8x64x256 .f32) (harg2 : arg2.IsWhole) (arg3 : Memref sig .tc .vmem S8x256x64 .f32) (harg3 : arg3.IsWhole) (arg4 : Memref sig .tc .vmem S8x4096x64 .f32) (harg4 : arg4.IsWhole) (x0 : Vec Ideal S8x4096x64 .f32) (x1 : Vec Ideal S8x64x256 .f32) (x2 : Vec Ideal S8x256x64 .f32)
    (bb : Fin 8) (s : Fin 4096) (d : Fin 64) (hb : bb.val < k0_t1_loop.trips) :
    out0_A_3 (F := Ideal) c i arg1 harg1 arg2 harg2 arg3 harg3 arg4 harg4 x0 x1 x2 (ix3 bb s d) = tile x0 x1 x2 ⟨bb.val, hb⟩ (ix3 (0 : Fin 1) s d) := by
  unfold out0_A_3 kernelRun0_A
  dsimp only
  have hT : Scf.trips (0#32) (Scalar.addi 0#32 8#32) 1#32 = k0_t1_loop.trips := rfl
  rw [hT, pieces_eq_tiles Variants.none c none i arg1 harg1 arg2 harg2 arg3 harg3 arg4 harg4 x0 x1 x2 _ le_rfl]
  refine View.read_tilePieces VO0_3 VO0_3.junk _ _ _ _ _ le_rfl (ix3 bb s d) ⟨bb.val, hb⟩ hb (ix3 (0 : Fin 1) s d) ?_ 0 ?_
  · intro a
    rw [k0_off1_eq]
    match a with
    | ⟨0, _⟩ => show bb.val = bb.val + 0; omega
    | ⟨1, _⟩ => show s.val = 0 + s.val; omega
    | ⟨2, _⟩ => show d.val = 0 + d.val; omega
  · intro i' hne
    rw [k0_off1_eq]
    show bb.val < i'.val ∨ i'.val + 1 ≤ bb.val
    have : i'.val ≠ bb.val := fun h => hne (Fin.ext h)
    omega

/-! ## The slabs and the block, entry by entry -/

theorem slabX_at (x0 : Vec Ideal S8x4096x64 .f32) (k : Fin k0_t1_loop.trips) (kk : Fin 8) (hk : kk.val = k.val)
    (s : Fin 4096) (d : Fin 64) : slabX x0 k (ix3 (0 : Fin 1) s d) = x0 (ix3 kk s d) := by
  unfold slabX
  refine congrArg x0 (funext fun a => Fin.ext ?_)
  rw [LoadRect.idx_apply]
  show k0_off1 k a + 1 * ((ix3 (0 : Fin 1) s d) a).val = ((ix3 kk s d) a).val
  rw [k0_off1_eq]
  match a with
  | ⟨0, _⟩ => show k.val + 1 * 0 = kk.val; omega
  | ⟨1, _⟩ => show 0 + 1 * s.val = s.val; omega
  | ⟨2, _⟩ => show 0 + 1 * d.val = d.val; omega

theorem slabW1_at (x1 : Vec Ideal S8x64x256 .f32) (k : Fin k0_t1_loop.trips) (kk : Fin 8) (hk : kk.val = k.val)
    (p : Fin 64) (h : Fin 256) : slabW1 x1 k (ix3 (0 : Fin 1) p h) = x1 (ix3 kk p h) := by
  unfold slabW1
  refine congrArg x1 (funext fun a => Fin.ext ?_)
  rw [LoadRect.idx_apply]
  show k0_off2 k a + 1 * ((ix3 (0 : Fin 1) p h) a).val = ((ix3 kk p h) a).val
  rw [k0_off2_eq]
  match a with
  | ⟨0, _⟩ => show k.val + 1 * 0 = kk.val; omega
  | ⟨1, _⟩ => show 0 + 1 * p.val = p.val; omega
  | ⟨2, _⟩ => show 0 + 1 * h.val = h.val; omega

theorem slabW2_at (x2 : Vec Ideal S8x256x64 .f32) (k : Fin k0_t1_loop.trips) (kk : Fin 8) (hk : kk.val = k.val)
    (h : Fin 256) (d : Fin 64) : slabW2 x2 k (ix3 (0 : Fin 1) h d) = x2 (ix3 kk h d) := by
  unfold slabW2
  refine congrArg x2 (funext fun a => Fin.ext ?_)
  rw [LoadRect.idx_apply]
  show k0_off3 k a + 1 * ((ix3 (0 : Fin 1) h d) a).val = ((ix3 kk h d) a).val
  rw [k0_off3_eq]
  match a with
  | ⟨0, _⟩ => show k.val + 1 * 0 = kk.val; omega
  | ⟨1, _⟩ => show 0 + 1 * h.val = h.val; omega
  | ⟨2, _⟩ => show 0 + 1 * d.val = d.val; omega

/-- The block a grid point leaves, entry by entry, as a function of the three staged blocks: perceptron `bb` of the
    block, applied to its own tokens. -/
theorem block_at (c : Dev nD) (i : grid0.Coords) (arg1 : Memref sig .tc .vmem S8x4096x64 .f32) (harg1 : arg1.IsWhole) (arg2 : Memref sig .tc .vmem S8x64x256 .f32) (harg2 : arg2.IsWhole) (arg3 : Memref sig .tc .vmem S8x256x64 .f32) (harg3 : arg3.IsWhole) (arg4 : Memref sig .tc .vmem S8x4096x64 .f32) (harg4 : arg4.IsWhole) (x0 : Vec Ideal S8x4096x64 .f32) (x1 : Vec Ideal S8x64x256 .f32) (x2 : Vec Ideal S8x256x64 .f32)
    (bb : Fin 8) (s : Fin 4096) (d : Fin 64) :
    out0_A_3 (F := Ideal) c i arg1 harg1 arg2 harg2 arg3 harg3 arg4 harg4 x0 x1 x2 (ix3 bb s d)
      = (∑ h : Fin 256, silu (∑ p : Fin 64, x0 (ix3 bb s p) * x1 (ix3 bb p h)) * x2 (ix3 bb h d)) + x0 (ix3 bb s d) := by
  have hb : bb.val < k0_t1_loop.trips := by rw [trips_eq]; exact bb.isLt
  rw [out_at c i arg1 harg1 arg2 harg2 arg3 harg3 arg4 harg4 x0 x1 x2 bb s d hb]
  unfold tile
  rw [Body.pay_at]
  simp only [slabX_at _ ⟨bb.val, hb⟩ bb rfl, slabW1_at _ ⟨bb.val, hb⟩ bb rfl, slabW2_at _ ⟨bb.val, hb⟩ bb rfl]

end Cert.Mlp.Tiles

end
-- ==== Proof.Whole.lean ====
/-
  From the sixteen blocks to the whole result array.

  The grid has sixteen points. Point `t` stages perceptrons `8t … 8t + 7`: every window's block index at `t` is `(t, 0, 0)`,
  with block sizes `(8, ·, ·)`, so entry `(bb, ·, ·)` of a staged block is entry `(8t + bb, ·, ·)` of its array. Hence what point
  `t` writes back is block `t` of the specification `Cert.Mlp.result` applied to the three argument arrays; the sixteen blocks
  cover the result array (row `r` lies in block `r / 8`), so after the run the array is `Cert.Mlp.result` of the arguments.
-/
import proofs.«171998_j47571057770918_2_alg».proof.Proof.Gen.KernelIdeal.Value
import proofs.«171998_j47571057770918_2_alg».proof.Proof.Tiles

set_option maxRecDepth 16384

noncomputable section

namespace Cert.Mlp.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every window's block index at grid point `t` is `(t, 0, 0)` (decided over the sixteen points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- There are sixteen grid points. -/
theorem N_eq : cfg0.N = 16 := by decide +kernel

/-- Perceptron `8t + bb`. -/
def glob (t : Fin cfg0.N) (bb : Fin 8) : Fin 128 := ⟨t.val * 8 + bb.val, by
  have ht : t.val < 16 := lt_of_lt_of_eq t.isLt N_eq
  have hb := bb.isLt
  omega⟩

/-- The staged token block at `(bb, s, p)` is the token array at `(8t + bb, s, p)`. -/
theorem tokens_at (c : Dev nD) (t : Fin cfg0.N) (bb : Fin 8) (s : Fin 4096) (p : Fin 64) :
    (iblk m c 0 t : S8x4096x64.Idx → EReal) (ix3 bb s p) = (V m c main_arg0 : S128x4096x64.Idx → EReal) (ix3 (glob t bb) s p) := by
  show (V m c main_arg0 : S128x4096x64.Idx → EReal) (((cfg0.win 0).blk t).view.emb (ix3 bb s p)) = _
  refine congrArg (V m c main_arg0 : S128x4096x64.Idx → EReal) (funext fun a => Fin.ext ?_)
  obtain ⟨⟨e0, e1, e2⟩, -, -, -⟩ := idx_facts t
  match a with
  | ⟨0, _⟩ => show win0_0.index t (0 : Fin 3) * 8 + 1 * bb.val = t.val * 8 + bb.val; rw [e0]; omega
  | ⟨1, _⟩ => show win0_0.index t (1 : Fin 3) * 4096 + 1 * s.val = s.val; rw [e1]; omega
  | ⟨2, _⟩ => show win0_0.index t (2 : Fin 3) * 64 + 1 * p.val = p.val; rw [e2]; omega

/-- The staged first weights at `(bb, p, h)` are the first-weight array at `(8t + bb, p, h)`. -/
theorem w1_at (c : Dev nD) (t : Fin cfg0.N) (bb : Fin 8) (p : Fin 64) (h : Fin 256) :
    (iblk m c 1 t : S8x64x256.Idx → EReal) (ix3 bb p h) = (V m c main_arg1 : S128x64x256.Idx → EReal) (ix3 (glob t bb) p h) := by
  show (V m c main_arg1 : S128x64x256.Idx → EReal) (((cfg0.win 1).blk t).view.emb (ix3 bb p h)) = _
  refine congrArg (V m c main_arg1 : S128x64x256.Idx → EReal) (funext fun a => Fin.ext ?_)
  obtain ⟨-, ⟨e0, e1, e2⟩, -, -⟩ := idx_facts t
  match a with
  | ⟨0, _⟩ => show win0_1.index t (0 : Fin 3) * 8 + 1 * bb.val = t.val * 8 + bb.val; rw [e0]; omega
  | ⟨1, _⟩ => show win0_1.index t (1 : Fin 3) * 64 + 1 * p.val = p.val; rw [e1]; omega
  | ⟨2, _⟩ => show win0_1.index t (2 : Fin 3) * 256 + 1 * h.val = h.val; rw [e2]; omega

/-- The staged second weights at `(bb, h, d)` are the second-weight array at `(8t + bb, h, d)`. -/
theorem w2_at (c : Dev nD) (t : Fin cfg0.N) (bb : Fin 8) (h : Fin 256) (d : Fin 64) :
    (iblk m c 2 t : S8x256x64.Idx → EReal) (ix3 bb h d) = (V m c main_arg2 : S128x256x64.Idx → EReal) (ix3 (glob t bb) h d) := by
  show (V m c main_arg2 : S128x256x64.Idx → EReal) (((cfg0.win 2).blk t).view.emb (ix3 bb h d)) = _
  refine congrArg (V m c main_arg2 : S128x256x64.Idx → EReal) (funext fun a => Fin.ext ?_)
  obtain ⟨-, -, ⟨e0, e1, e2⟩, -⟩ := idx_facts t
  match a with
  | ⟨0, _⟩ => show win0_2.index t (0 : Fin 3) * 8 + 1 * bb.val = t.val * 8 + bb.val; rw [e0]; omega
  | ⟨1, _⟩ => show win0_2.index t (1 : Fin 3) * 256 + 1 * h.val = h.val; rw [e1]; omega
  | ⟨2, _⟩ => show win0_2.index t (2 : Fin 3) * 64 + 1 * d.val = d.val; rw [e2]; omega

/-- Entry `(bb, s, d)` of the output's block at `t` sits at `(8t + bb, s, d)` of the result array. -/
theorem out_emb (t : Fin cfg0.N) (bb : Fin 8) (s : Fin 4096) (d : Fin 64) :
    (((cfg0.win 3).blk t).view.emb (ix3 bb s d) : S128x4096x64.Idx) = ix3 (glob t bb) s d := by
  refine funext fun a => Fin.ext ?_
  obtain ⟨-, -, -, ⟨e0, e1, e2⟩⟩ := idx_facts t
  match a with
  | ⟨0, _⟩ => show win0_3.index t (0 : Fin 3) * 8 + 1 * bb.val = t.val * 8 + bb.val; rw [e0]; omega
  | ⟨1, _⟩ => show win0_3.index t (1 : Fin 3) * 4096 + 1 * s.val = s.val; rw [e1]; omega
  | ⟨2, _⟩ => show win0_3.index t (2 : Fin 3) * 64 + 1 * d.val = d.val; rw [e2]; omega

/-- What grid point `t` writes back is block `t` of the specification applied to the argument arrays. -/
theorem flushed_eq (c : Dev nD) (t : Fin cfg0.N) :
    (dats m 0 c).flushed 3 t = ((cfg0.win 3).blk t).view.read (Elt Ideal)
      (result (V m c main_arg0) (V m c main_arg1) (V m c main_arg2)) := by
  rw [flushed3_A]
  refine funext fun (j : S8x4096x64.Idx) => ?_
  obtain ⟨bb, s, d, rfl⟩ : ∃ (bb : Fin 8) (s : Fin 4096) (d : Fin 64), j = ix3 bb s d := ⟨j 0, j 1, j 2, eq_ix3 j⟩
  show out0_A_3 (F := Ideal) c (grid0.coords t) (ms0_0 t) (hs0_0 t) (ms0_1 t) (hs0_1 t) (ms0_2 t) (hs0_2 t) (ms0_3 t) (hs0_3 t)
      (iblk m c 0 t) (iblk m c 1 t) (iblk m c 2 t) (ix3 bb s d)
    = result (V m c main_arg0) (V m c main_arg1) (V m c main_arg2) (((cfg0.win 3).blk t).view.emb (ix3 bb s d))
  refine (Tiles.block_at c (grid0.coords t) (ms0_0 t) (hs0_0 t) (ms0_1 t) (hs0_1 t) (ms0_2 t) (hs0_2 t) (ms0_3 t) (hs0_3 t)
    (iblk m c 0 t) (iblk m c 1 t) (iblk m c 2 t) bb s d).trans ?_
  rw [out_emb t bb s d, result_ix3]
  simp only [tokens_at m c t, w1_at m c t, w2_at m c t]
  rfl

/-- An index of the result array is in point `t`'s block iff each coordinate is in the block's range on its axis. -/
theorem mem_blk (t : Fin cfg0.N) (i : S128x4096x64.Idx) :
    i ∈ ((cfg0.win 3).blk t).view.set ↔ ∀ a : Fin 3, win0_3.index t a * S8x4096x64.size a ≤ (i a).val
      ∧ (i a).val < win0_3.index t a * S8x4096x64.size a + S8x4096x64.size a := by
  show i ∈ ((View.whole main_v0).slice (win0_3.rect t)).set ↔ _
  rw [View.set_slice_whole, Rect.mem_set_unit]
  exact Iff.rfl

/-- Every index of the result array lies in some point's block: row `r` of the first axis in block `r / 8`. -/
theorem cover (i : S128x4096x64.Idx) :
    ∃ t : Fin cfg0.N, (cfg0.win 3).flush t = true ∧ i ∈ ((cfg0.win 3).blk t).view.set := by
  have h0 : (i 0).val < 128 := (i 0).isLt
  have h1 : (i 1).val < 4096 := (i 1).isLt
  have h2 : (i 2).val < 64 := (i 2).isLt
  let t : Fin cfg0.N := ⟨(i 0).val / 8, by rw [N_eq]; omega⟩
  have ht : t.val = (i 0).val / 8 := rfl
  refine ⟨t, flush0_3 t, ?_⟩
  rw [mem_blk]
  obtain ⟨-, -, -, ⟨e0, e1, e2⟩⟩ := idx_facts t
  intro a
  match a with
  | ⟨0, _⟩ => show win0_3.index t (0 : Fin 3) * 8 ≤ (i 0).val ∧ (i 0).val < win0_3.index t (0 : Fin 3) * 8 + 8; rw [e0]; omega
  | ⟨1, _⟩ => show win0_3.index t (1 : Fin 3) * 4096 ≤ (i 1).val ∧ (i 1).val < win0_3.index t (1 : Fin 3) * 4096 + 4096; rw [e1]; omega
  | ⟨2, _⟩ => show win0_3.index t (2 : Fin 3) * 64 ≤ (i 2).val ∧ (i 2).val < win0_3.index t (2 : Fin 3) * 64 + 64; rw [e2]; omega

/-- After the run the result array is the specification applied to the argument arrays. -/
theorem final (c : Dev nD) :
    (dats m 0 c).arrAt 3 cfg0.N = result (m ((c : Thread nD τ).loc main_arg0)) (m ((c : Thread nD τ).loc main_arg1))
      (m ((c : Thread nD τ).loc main_arg2)) :=
  (dats m 0 c).arrAt_eq_of_cover 3 _ (fun t _ => flushed_eq m c t) cover

/-- The kernel's run: the result array ends at the specification of the arguments, the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Mlp.Whole

end
-- ==== Proof.lean ====
/-
  128 independent two-layer perceptrons with a residual: the kernel and its reference compute one function.

  For perceptron `b`, token `s` and output coordinate `d`,

    out[b, s, d] = (∑ h < 256, silu (∑ k < 64, x[b, s, k] · W1[b, k, h]) · W2[b, h, d]) + x[b, s, d],   silu t = t · logistic t.

  The kernel walks a grid of sixteen points, eight perceptrons per point, one perceptron per trip of an inner loop; each trip
  forms the two matrix products on rounded-format copies of its operands (the identity on the extended reals) and adds the
  tokens back. The reference forms two batched products over all 128 perceptrons at once and spells the logistic out as
  `1 / (1 + e^(-t))`, which is the same function on every extended real, `-∞` and `+∞` included. Both arrange the same sums in
  the same way, so the equality uses no law that needs finite entries and the precondition is never opened.

  `Spec` states the function; `RefSpec` reads the reference's result as it; `Body` reads one trip's stored slab; `Tiles` reads
  the block a grid point leaves (eight slabs kept apart by the first axis); `Whole` reads the result array from its sixteen
  blocks. The idealization rewrote no operation, so there is nothing to preserve beyond the program's own text.
-/
import proofs.«171998_j47571057770918_2_alg».proof.Defs
import proofs.«171998_j47571057770918_2_alg».proof.Proof.Gen.Kernel
import proofs.«171998_j47571057770918_2_alg».proof.Proof.Gen.Kernel.Skeleton
import proofs.«171998_j47571057770918_2_alg».proof.Proof.Gen.Kernel.Loops
import proofs.«171998_j47571057770918_2_alg».proof.Proof.Gen.Kernel.Launch
import proofs.«171998_j47571057770918_2_alg».proof.Proof.Gen.Kernel.Points
import proofs.«171998_j47571057770918_2_alg».proof.Proof.Gen.Kernel.Frame
import proofs.«171998_j47571057770918_2_alg».proof.Proof.Gen.KernelIdeal
import proofs.«171998_j47571057770918_2_alg».proof.Proof.Gen.KernelIdeal.Skeleton
import proofs.«171998_j47571057770918_2_alg».proof.Proof.Gen.KernelIdeal.Loops
import proofs.«171998_j47571057770918_2_alg».proof.Proof.Gen.KernelIdeal.Launch
import proofs.«171998_j47571057770918_2_alg».proof.Proof.Gen.KernelIdeal.Points
import proofs.«171998_j47571057770918_2_alg».proof.Proof.Gen.KernelIdeal.Frame
import proofs.«171998_j47571057770918_2_alg».proof.Proof.Gen.ReferenceIdeal
import proofs.«171998_j47571057770918_2_alg».proof.Proof.Gen.Pre_finite_inputs
import proofs.«171998_j47571057770918_2_alg».proof.Proof.Gen.KernelIdeal.Value
import proofs.«171998_j47571057770918_2_alg».proof.Proof.Gen.ReferenceIdeal.Run
import proofs.«171998_j47571057770918_2_alg».proof.Proof.Gen.ReferenceIdeal.Read
import proofs.«171998_j47571057770918_2_alg».proof.Proof.RefSpec
import proofs.«171998_j47571057770918_2_alg».proof.Proof.Whole
import Idealize.ShloMosaic.Adequacy
import Idealize.ShloMosaic.Init

noncomputable section

namespace Cert.Proof

open Idealize.ShloMosaic Idealize.SL.Sem

/-- The word-level kernel terminates without a fault and leaves its arguments unchanged. -/
theorem frame_kernel [Cert.Kernel.Facts] [Cert.Pre_finite_inputs.Facts] : Cert.frame_Kernel :=
  fun m ρ _ => Cert.Kernel.Gen.frame m ρ

/-- So does the kernel read on the extended reals. -/
theorem frame_kernel_ideal [Cert.KernelIdeal.Facts] [Cert.Pre_finite_inputs.Facts] : Cert.frame_KernelIdeal :=
  fun m ρ _ => Cert.KernelIdeal.Gen.frame m ρ

/-- The reference is a straight line of host operations: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the three arguments, both programs end with the result array at the one function
    `Cert.Mlp.result` of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.Mlp.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Mlp.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
